-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S640000 : Shape := ⟨1, ![640000]⟩
abbrev S640000x50 : Shape := ⟨2, ![640000, 50]⟩
abbrev S128x50 : Shape := ⟨2, ![128, 50]⟩
abbrev S128 : Shape := ⟨1, ![128]⟩
abbrev S128x128 : Shape := ⟨2, ![128, 128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S640000x50 : S_.BroadcastsInDim S640000x50 (![] : Fin 0 → Fin S640000x50.rank)
  reducesTo_S640000x50_S_d0_1 : S640000x50.ReducesTo [0, 1] S_
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128x128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_v13 : IVec S_ 1) (main_v16 : IVec S128x50 1) : IVec S_ 1 :=
  let main_c_5 : IVec S_ 1 := constantI S_ 1 1#1
  let main_v17 : IVec S_ 1 := (fun x v => Host.reduce IntOp.andi x v reducesTo_S128x50_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S20000x128 .f32) (main_arg1 : IVec S2x640000 32) (main_arg2 : FVec F S640000 .f32) (main_arg3 : FVec F S640000x50 .f32) (main_arg4 : FVec F S128x50 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S640000x50 .f32 := Host.absf main_arg3
  let main_cst_2 : FVec F S_ .f32 := constant S_ .f32 0x7F800000#32
  let main_v10 : FVec F S640000x50 .f32 := broadcastInDim S640000x50 ![] bcast_S_S640000x50 main_cst_2
  let main_v11 : IVec S640000x50 1 := cmpf .olt main_v9 main_v10
  let main_c_3 : IVec S_ 1 := constantI S_ 1 1#1
  let main_v12 : IVec S_ 1 := (fun x v => Host.reduce IntOp.andi x v reducesTo_S640000x50_S_d0_1 h_S_) main_v11 main_c_3
  let main_v13 : IVec S_ 1 := andi main_v8 main_v12
  let main_v14 : FVec F S128x50 .f32 := Host.absf main_arg4
  let main_cst_4 : FVec F S_ .f32 := constant S_ .f32 0x7F800000#32
  let main_v15 : FVec F S128x50 .f32 := broadcastInDim S128x50 ![] bcast_S_S128x50 main_cst_4
  let main_v16 : IVec S128x50 1 := cmpf .olt main_v14 main_v15
  fn_part1 (F := F) main_arg5 main_arg6 main_arg7 main_arg8 main_arg9 main_arg10 main_arg11 main_arg12 main_v13 main_v16
-- ==== Kernel.lean ====
abbrev S20000x128 : Shape := ⟨2, ![20000, 128]⟩
abbrev S2x640000 : Shape := ⟨2, ![2, 640000]⟩
abbrev S640000 : Shape := ⟨1, ![640000]⟩
abbrev S640000x50 : Shape := ⟨2, ![640000, 50]⟩
abbrev S128x50 : Shape := ⟨2, ![128, 50]⟩
abbrev S128 : Shape := ⟨1, ![128]⟩
abbrev S128x128 : Shape := ⟨2, ![128, 128]⟩
abbrev S50x128 : Shape := ⟨2, ![50, 128]⟩
abbrev S1x128 : Shape := ⟨2, ![1, 128]⟩
abbrev S2000x128 : Shape := ⟨2, ![2000, 128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S6400x50 : Shape := ⟨2, ![6400, 50]⟩
abbrev S6400x1 : Shape := ⟨2, ![6400, 1]⟩
abbrev S6400x128 : Shape := ⟨2, ![6400, 128]⟩

abbrev nBuf : Space → Nat
  | .hbm => 53
  | .vmem => 25
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S640000, .f32⟩
  | .hbm, ⟨3, _⟩ => ⟨S640000x50, .f32⟩
  | .hbm, ⟨4, _⟩ => ⟨S128x50, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S50x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S20000x128, .f32⟩
  | .hbm, ⟨23, _⟩ => ⟨S1x640000, .i32⟩
  | .hbm, ⟨24, _⟩ => ⟨S640000, .i32⟩
  | .hbm, ⟨25, _⟩ => ⟨S1x640000, .i32⟩
  | .hbm, ⟨26, _⟩ => ⟨S640000, .i32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S_, .f32⟩
  | .hbm, ⟨37, _⟩ => ⟨S640000, .f32⟩
  | .hbm, ⟨38, _⟩ => ⟨S640000, .f32⟩
  | .hbm, ⟨39, _⟩ => ⟨S640000, .f32⟩
  | .hbm, ⟨40, _⟩ => ⟨S_, .f32⟩
  | .hbm, ⟨41, _⟩ => ⟨S640000, .f32⟩
  | .hbm, ⟨42, _⟩ => ⟨S640000, .f32⟩
  | .hbm, ⟨43, _⟩ => ⟨S_, .f32⟩
  | .hbm, ⟨44, _⟩ => ⟨S640000, .f32⟩
  | .hbm, ⟨45, _⟩ => ⟨S640000, .f32⟩
  | .hbm, ⟨46, _⟩ => ⟨S640000x1, .f32⟩
  | .hbm, ⟨47, _⟩ => ⟨S640000x128, .f32⟩
  | .hbm, ⟨48, _⟩ => ⟨S_, .f32⟩
  | .hbm, ⟨49, _⟩ => ⟨S20000x128, .f32⟩
  | .hbm, ⟨50, _⟩ => ⟨S640000x1, .i32⟩
  | .hbm, ⟨51, _⟩ => ⟨S20000x128, .f32⟩
  | .hbm, ⟨52, _⟩ => ⟨S20000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S6400x50, .f32⟩
  | .local _ .vmem, ⟨6, _⟩ => ⟨S6400x50, .f32⟩
  | .local _ .vmem, ⟨7, _⟩ => ⟨S6400x1, .f32⟩
  | .local _ .vmem, ⟨8, _⟩ => ⟨S6400x1, .f32⟩
  | .local _ .vmem, ⟨9, _⟩ => ⟨S6400x128, .f32⟩
  | .local _ .vmem, ⟨10, _⟩ => ⟨S6400x128, .f32⟩
  | .local _ .vmem, ⟨11, _⟩ => ⟨S50x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S6400x128, .f32⟩
  | .local _ .vmem, ⟨16, _⟩ => ⟨S6400x128, .f32⟩
  | .local _ .vmem, ⟨17, _⟩ => ⟨S2000x128, .f32⟩
  | .local _ .vmem, ⟨18, _⟩ => ⟨S2000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S50x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S128x128_S128x128_1_0 : S128x128.Transposes [1, 0] S128x128
  transposes_S128x50_S50x128_1_0 : S128x50.Transposes [1, 0] S50x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  shapeCasts_S640000_S640000x1 : S640000.ShapeCasts S640000x1
  inb_S6400x50_S6400x50_0_0 : ∀ a, (![0, 0] : Fin 2 → Nat) a + S6400x50.size a ≤ S6400x50.size a
  h_S6400x50 : 0 < S6400x50.numel
  inb_S50x128_S50x128_0_0 : ∀ a, (![0, 0] : Fin 2 → Nat) a + S50x128.size a ≤ S50x128.size a
  h_S50x128 : 0 < S50x128.numel
  shapeCasts_S50x128_S50x128 : S50x128.ShapeCasts S50x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  broadcasts_S6400x1_S6400x128 : S6400x1.Broadcasts S6400x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bcast_S_S20000x128 : S_.BroadcastsInDim S20000x128 (![] : Fin 0 → Fin S20000x128.rank)
  shapeCasts_S2000x128_S2000x128 : S2000x128.ShapeCasts S2000x128
  broadcasts_S1x128_S2000x128 : S1x128.Broadcasts S2000x128
  dot_S2000x128_S128x128_S2000x128_1_0_0_1_n_n_wf : DotDims.WF S2000x128 S128x128 S2000x128 [1] [0] [0] [1] [] []
  gather_S20000x128_S640000x1_S640000x128_1_0_n_n_0_1_1128_wf : GatherDims.WF S20000x128 S640000x1 S640000x128 [1] [0] [] [0] [] 1 ![1, 128]
  dot_S6400x50_S50x128_S6400x128_1_0_0_1_n_n_wf : DotDims.WF S6400x50 S50x128 S6400x128 [1] [0] [0] [1] [] []
  dot_S6400x128_S128x128_S6400x128_1_0_0_1_n_n_wf : DotDims.WF S6400x128 S128x128 S6400x128 [1] [0] [0] [1] [] []
  scatter_S20000x128_S640000x1_S640000x128_1_0_0_1_wf : ScatterDims.WF S20000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S20000x128.size a
  hwx0_2 : ∀ i : grid0.Coords, EltTy.bits .f32 = 32 ∨ (Rect.block (s := S20000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x50.size a ≤ S640000x50.size a
  hwx1_0 : ∀ i : grid1.Coords, EltTy.bits .f32 = 32 ∨ (Rect.block (s := S640000x50) S6400x50.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x1.size a ≤ S640000x1.size a
  hwx1_1 : ∀ i : grid1.Coords, EltTy.bits .f32 = 32 ∨ (Rect.block (s := S640000x1) S6400x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x128.size a ≤ S640000x128.size a
  hwx1_2 : ∀ i : grid1.Coords, EltTy.bits .f32 = 32 ∨ (Rect.block (s := S640000x128) S6400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S50x128.size a ≤ S50x128.size a
  hwx1_3 : ∀ i : grid1.Coords, EltTy.bits .f32 = 32 ∨ (Rect.block (s := S50x128) S50x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6400x128.size a ≤ S640000x128.size a
  hwx1_7 : ∀ i : grid1.Coords, EltTy.bits .f32 = 32 ∨ (Rect.block (s := S640000x128) S6400x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S20000x128.size a
  hwx2_5 : ∀ i : grid2.Coords, EltTy.bits .f32 = 32 ∨ (Rect.block (s := S20000x128) S2000x128.size (cc2_transform_5 i) (hinb2_5 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S6400x50_S50x128_S6400x128_1_0_0_1_n_n : DotDims S6400x50 S50x128 S6400x128 where
  lhsContracting := [1]
  rhsContracting := [0]
  lhsNonContracting := [0]
  rhsNonContracting := [1]
  lhsBatch := []
  rhsBatch := []
  wf := dot_S6400x50_S50x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S6400x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S6400x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S6400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S50x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S6400x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v32) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S640000 : Shape := ⟨1, ![640000]⟩
abbrev S640000x50 : Shape := ⟨2, ![640000, 50]⟩
abbrev S128x50 : Shape := ⟨2, ![128, 50]⟩
abbrev S128 : Shape := ⟨1, ![128]⟩
abbrev S128x128 : Shape := ⟨2, ![128, 128]⟩
abbrev S_ : Shape := ⟨0, ![]⟩
abbrev S50x128 : Shape := ⟨2, ![50, 128]⟩
abbrev S640000x128 : Shape := ⟨2, ![640000, 128]⟩
abbrev S1x128 : Shape := ⟨2, ![1, 128]⟩
abbrev S640000x1 : Shape := ⟨2, ![640000, 1]⟩
abbrev S1x640000 : Shape := ⟨2, ![1, 640000]⟩

abbrev nBuf : Space → Nat
  | .hbm => 84
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S640000, .f32⟩
  | .hbm, ⟨3, _⟩ => ⟨S640000x50, .f32⟩
  | .hbm, ⟨4, _⟩ => ⟨S128x50, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .f32⟩
  | .hbm, ⟨14, _⟩ => ⟨S640000, .f32⟩
  | .hbm, ⟨15, _⟩ => ⟨S640000, .f32⟩
  | .hbm, ⟨16, _⟩ => ⟨S640000, .f32⟩
  | .hbm, ⟨17, _⟩ => ⟨S_, .f32⟩
  | .hbm, ⟨18, _⟩ => ⟨S640000, .f32⟩
  | .hbm, ⟨19, _⟩ => ⟨S640000, .f32⟩
  | .hbm, ⟨20, _⟩ => ⟨S_, .f32⟩
  | .hbm, ⟨21, _⟩ => ⟨S640000, .f32⟩
  | .hbm, ⟨22, _⟩ => ⟨S640000, .f32⟩
  | .hbm, ⟨23, _⟩ => ⟨S50x128, .f32⟩
  | .hbm, ⟨24, _⟩ => ⟨S640000x128, .f32⟩
  | .hbm, ⟨25, _⟩ => ⟨S1x128, .f32⟩
  | .hbm, ⟨26, _⟩ => ⟨S640000x128, .f32⟩
  | .hbm, ⟨27, _⟩ => ⟨S640000x128, .f32⟩
  | .hbm, ⟨28, _⟩ => ⟨S640000x128, .f32⟩
  | .hbm, ⟨29, _⟩ => ⟨S640000x128, .f32⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S_, .f32⟩
  | .hbm, ⟨34, _⟩ => ⟨S640000x128, .f32⟩
  | .hbm, ⟨35, _⟩ => ⟨S640000x128, .f32⟩
  | .hbm, ⟨36, _⟩ => ⟨S640000x128, .f32⟩
  | .hbm, ⟨37, _⟩ => ⟨S128x128, .f32⟩
  | .hbm, ⟨38, _⟩ => ⟨S640000x128, .f32⟩
  | .hbm, ⟨39, _⟩ => ⟨S1x128, .f32⟩
  | .hbm, ⟨40, _⟩ => ⟨S640000x128, .f32⟩
  | .hbm, ⟨41, _⟩ => ⟨S640000x128, .f32⟩
  | .hbm, ⟨42, _⟩ => ⟨S640000x1, .f32⟩
  | .hbm, ⟨43, _⟩ => ⟨S640000x128, .f32⟩
  | .hbm, ⟨44, _⟩ => ⟨S640000x128, .f32⟩
  | .hbm, ⟨45, _⟩ => ⟨S128x128, .f32⟩
  | .hbm, ⟨46, _⟩ => ⟨S20000x128, .f32⟩
  | .hbm, ⟨47, _⟩ => ⟨S1x640000, .i32⟩
  | .hbm, ⟨48, _⟩ => ⟨S640000, .i32⟩
  | .hbm, ⟨49, _⟩ => ⟨S_, .i32⟩
  | .hbm, ⟨50, _⟩ => ⟨S640000, .i32⟩
  | .hbm, ⟨51, _⟩ => ⟨S640000, .i1⟩
  | .hbm, ⟨52, _⟩ => ⟨S_, .i32⟩
  | .hbm, ⟨53, _⟩ => ⟨S640000, .i32⟩
  | .hbm, ⟨54, _⟩ => ⟨S640000, .i32⟩
  | .hbm, ⟨55, _⟩ => ⟨S640000, .i32⟩
  | .hbm, ⟨56, _⟩ => ⟨S640000x1, .i32⟩
  | .hbm, ⟨57, _⟩ => ⟨S640000x128, .f32⟩
  | .hbm, ⟨58, _⟩ => ⟨S640000x128, .f32⟩
  | .hbm, ⟨59, _⟩ => ⟨S1x640000, .i32⟩
  | .hbm, ⟨60, _⟩ => ⟨S640000, .i32⟩
  | .hbm, ⟨61, _⟩ => ⟨S_, .f32⟩
  | .hbm, ⟨62, _⟩ => ⟨S20000x128, .f32⟩
  | .hbm, ⟨63, _⟩ => ⟨S640000x1, .i32⟩
  | .hbm, ⟨64, _⟩ => ⟨S20000x128, .f32⟩
  | .hbm, ⟨65, _⟩ => ⟨S128x128, .f32⟩
  | .hbm, ⟨66, _⟩ => ⟨S20000x128, .f32⟩
  | .hbm, ⟨67, _⟩ => ⟨S1x128, .f32⟩
  | .hbm, ⟨68, _⟩ => ⟨S20000x128, .f32⟩
  | .hbm, ⟨69, _⟩ => ⟨S20000x128, .f32⟩
  | .hbm, ⟨70, _⟩ => ⟨S20000x128, .f32⟩
  | .hbm, ⟨71, _⟩ => ⟨S20000x128, .f32⟩
  | .hbm, ⟨72, _⟩ => ⟨S_, .f32⟩
  | .hbm, ⟨73, _⟩ => ⟨S20000x128, .f32⟩
  | .hbm, ⟨74, _⟩ => ⟨S20000x128, .f32⟩
  | .hbm, ⟨75, _⟩ => ⟨S_, .f32⟩
  | .hbm, ⟨76, _⟩ => ⟨S20000x128, .f32⟩
  | .hbm, ⟨77, _⟩ => ⟨S20000x128, .f32⟩
  | .hbm, ⟨78, _⟩ => ⟨S20000x128, .f32⟩
  | .hbm, ⟨79, _⟩ => ⟨S128x128, .f32⟩
  | .hbm, ⟨80, _⟩ => ⟨S20000x128, .f32⟩
  | .hbm, ⟨81, _⟩ => ⟨S1x128, .f32⟩
  | .hbm, ⟨82, _⟩ => ⟨S20000x128, .f32⟩
  | .hbm, ⟨83, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c : Ref sig .tc := ⟨.hbm, 49, rfl⟩
abbrev main_v25 : Ref sig .tc := ⟨.hbm, 50, rfl⟩
abbrev main_v26 : Ref sig .tc := ⟨.hbm, 51, rfl⟩
abbrev main_c_2 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_3 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  transposes_S128x50_S50x128_1_0 : S128x50.Transposes [1, 0] S50x128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  transposes_S128x128_S128x128_1_0 : S128x128.Transposes [1, 0] S128x128
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S20000x128 : S_.BroadcastsInDim S20000x128 (![] : Fin 0 → Fin S20000x128.rank)
  bcast_S1x128_S20000x128_0_1 : S1x128.BroadcastsInDim S20000x128 (![0, 1] : Fin 2 → Fin S20000x128.rank)
  dot_S640000x50_S50x128_S640000x128_1_0_0_1_n_n_wf : DotDims.WF S640000x50 S50x128 S640000x128 [1] [0] [0] [1] [] []
  dot_S640000x128_S128x128_S640000x128_1_0_0_1_n_n_wf : DotDims.WF S640000x128 S128x128 S640000x128 [1] [0] [0] [1] [] []
  dot_S20000x128_S128x128_S20000x128_1_0_0_1_n_n_wf : DotDims.WF S20000x128 S128x128 S20000x128 [1] [0] [0] [1] [] []
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1

variable [Facts₀]

def dot_S640000x50_S50x128_S640000x128_1_0_0_1_n_n : DotDims S640000x50 S50x128 S640000x128 where
  lhsContracting := [1]
  rhsContracting := [0]
  lhsNonContracting := [0]
  rhsNonContracting := [1]
  lhsBatch := []
  rhsBatch := []
  wf := dot_S640000x50_S50x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf

class Facts : Prop extends Facts₀ where

variable [Facts]
-- ==== Proof.KernelRun.lean ====
/-
  The idealized kernel's run with its result named.

  The program is three kernel launches among stretches of host operations. Its buffers' contents at each boundary are a fold
  from the launch memory: a stretch applies its operations in order, a launch leaves each of its arrays at what its
  write-backs fold to and every other buffer as it found it. Every execution ends with each unscoped buffer at the last
  boundary's contents; read at the result buffer that gives the result, and read at the arguments, which nothing writes, it
  gives the launch memory back.
-/
import proofs.«159987_j18081812316197_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from `m` terminates without a fault; the result buffer ends at the last boundary's contents
    and every argument as launched. -/
theorem run_named : θ_run defs (onTc (τ := τ) (main (F := F))) ⟨m, fun _ => 0, ρ⟩ (fun r => ∀ c : Dev nD,
      r.2.mem ((c.tc : Thread nD τ).loc main_v33) = W6 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v33 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.RunValue

end
-- ==== Proof.LibRowStages.lean ====
/-
  Row-wise stages of a dense layer as functions of whole matrices on the extended reals, and their restriction to row blocks.

  `proj a w` is the matrix product `a · w` and `mlp a W1 b1 W2 b2` the two-layer perceptron `silu (a · W1 + b1) · W2 + b2` with
  `silu h = h · σ(h)`, `σ` the logistic function; both are stated index by index over matrices of literal extents with the number
  of rows a parameter, weights contracted along their first axis and biases held as `[1, N]` rows. Row `r` of either depends on
  row `r` of `a` only: `proj_rows` and `mlp_rows` say that the stage of a row block is the row block of the stage, given that the
  block's rows are the matrix's rows and the other operands agree where they are read. A kernel that tiles such a stage over
  row blocks then writes, at every grid point, a block of the stage of the whole arrays. Only congruence of sums is used.
-/
import Idealize.ShloMosaic.PureOps.Ideal
import Idealize.ShloMosaic.Lib.ValueIdx

noncomputable section

namespace Cert.Lib.RowStages

open Idealize.ShloMosaic Idealize.ShloMosaic.ValueIdx

/-- An `M × N` matrix of extended reals, indexed as the programs index a rank-2 array. -/
abbrev Mat (M N : ℕ) : Type := (⟨2, ![M, N]⟩ : Shape).Idx → EReal

/-- `silu h = h · σ(h)` with `σ h = 1 / (1 + e^(−h))`, on the extended reals. -/
def silu (h : EReal) : EReal := h * Ideal.logistic h

/-- The matrix product `a · w`: entry `(r, c)` is `∑ k, a (r, k) · w (k, c)`. -/
def proj {M K N : ℕ} (a : Mat M K) (w : Mat K N) : Mat M N :=
  fun i => ∑ k : Fin K, a (ix2 (i 0) k) * w (ix2 k (i 1))

/-- The two-layer perceptron `silu (a · W1 + b1) · W2 + b2`, the biases added to every row. -/
def mlp {M K H N : ℕ} (a : Mat M K) (W1 : Mat K H) (b1 : Mat 1 H) (W2 : Mat H N) (b2 : Mat 1 N) : Mat M N :=
  fun i => (∑ j : Fin H, silu ((∑ g : Fin K, a (ix2 (i 0) g) * W1 (ix2 g j)) + b1 (ix2 0 j)) * W2 (ix2 j (i 1)))
    + b2 (ix2 0 (i 1))

/-- `proj` at coordinates. -/
theorem proj_ix2 {M K N : ℕ} (a : Mat M K) (w : Mat K N) (p : Fin M) (q : Fin N) :
    proj a w (ix2 p q) = ∑ k : Fin K, a (ix2 p k) * w (ix2 k q) := rfl

/-- `mlp` at coordinates. -/
theorem mlp_ix2 {M K H N : ℕ} (a : Mat M K) (W1 : Mat K H) (b1 : Mat 1 H) (W2 : Mat H N) (b2 : Mat 1 N) (p : Fin M) (q : Fin N) :
    mlp a W1 b1 W2 b2 (ix2 p q)
      = (∑ j : Fin H, silu ((∑ g : Fin K, a (ix2 p g) * W1 (ix2 g j)) + b1 (ix2 0 j)) * W2 (ix2 j q)) + b2 (ix2 0 q) := rfl

/-- Row `i 0` of `A · w` is row `j 0` of `a · w'` when those two rows agree and the weights agree on the column read. -/
theorem proj_rows {M Mb K N : ℕ} (A : Mat M K) (a : Mat Mb K) (w w' : Mat K N)
    (i : (⟨2, ![M, N]⟩ : Shape).Idx) (j : (⟨2, ![Mb, N]⟩ : Shape).Idx)
    (ha : ∀ k : Fin K, a (ix2 (j 0) k) = A (ix2 (i 0) k))
    (hw : ∀ k : Fin K, w' (ix2 k (j 1)) = w (ix2 k (i 1))) :
    proj a w' j = proj A w i := by
  unfold proj
  exact Finset.sum_congr rfl fun k _ => by rw [ha k, hw k]

/-- The same for the perceptron: a row of the result depends on that row of `a` only. -/
theorem mlp_rows {M Mb K H N : ℕ} (A : Mat M K) (a : Mat Mb K) (W1 W1' : Mat K H) (b1 b1' : Mat 1 H)
    (W2 W2' : Mat H N) (b2 b2' : Mat 1 N)
    (i : (⟨2, ![M, N]⟩ : Shape).Idx) (j : (⟨2, ![Mb, N]⟩ : Shape).Idx)
    (ha : ∀ g : Fin K, a (ix2 (j 0) g) = A (ix2 (i 0) g))
    (hW1 : ∀ (g : Fin K) (h : Fin H), W1' (ix2 g h) = W1 (ix2 g h))
    (hb1 : ∀ h : Fin H, b1' (ix2 0 h) = b1 (ix2 0 h))
    (hW2 : ∀ h : Fin H, W2' (ix2 h (j 1)) = W2 (ix2 h (i 1)))
    (hb2 : b2' (ix2 0 (j 1)) = b2 (ix2 0 (i 1))) :
    mlp a W1' b1' W2' b2' j = mlp A W1 b1 W2 b2 i := by
  unfold mlp
  rw [hb2]
  congr 1
  refine Finset.sum_congr rfl fun h _ => ?_
  rw [hW2 h, hb1 h]
  congr 2
  congr 1
  exact Finset.sum_congr rfl fun g _ => by rw [ha g, hW1 g h]

end Cert.Lib.RowStages

end
-- ==== Proof.Stages.lean ====
/-
  The stages of the layer as functions of whole arrays, on the extended reals.

  A continuous-filter convolution over a graph: node features are projected (`proj`: a matrix product), the projected row of
  each edge's source node is weighted by a filter computed from the edge's attributes — a two-layer perceptron with the
  activation `silu h = h · σ(h)`, scaled by the edge's cosine envelope (`msg`) —, the weighted rows are added up per target
  node, and a second two-layer perceptron (`mlp`) is applied to each node's sum. The product and the perceptron are the
  row-wise stages of the general module; here is the message stage, which like them depends, row by row, on the same row of its
  per-edge operands: the stage of a row block is the row block of the stage. The envelope enters as an `[M, 1]` column.
-/
import proofs.«159987_j18081812316197_1_alg».proof.Proof.LibRowStages

noncomputable section

namespace Cert.Stage

open Idealize.ShloMosaic Idealize.ShloMosaic.ValueIdx

export Cert.Lib.RowStages (Mat silu proj mlp proj_ix2 mlp_ix2 proj_rows mlp_rows)

/-- An edge's message: its filter `mlp ea W1 b1 W2 b2`, scaled by the edge's envelope `c`, times its source node's
    projected features `xs`, entry by entry. -/
def msg {M K H N : ℕ} (ea : Mat M K) (c : Mat M 1) (xs : Mat M N) (W1 : Mat K H) (b1 : Mat 1 H) (W2 : Mat H N)
    (b2 : Mat 1 N) : Mat M N :=
  fun i => mlp ea W1 b1 W2 b2 i * c (ix2 (i 0) 0) * xs (ix2 (i 0) (i 1))

/-- `msg` at coordinates. -/
theorem msg_ix2 {M K H N : ℕ} (ea : Mat M K) (c : Mat M 1) (xs : Mat M N) (W1 : Mat K H) (b1 : Mat 1 H) (W2 : Mat H N)
    (b2 : Mat 1 N) (p : Fin M) (q : Fin N) :
    msg ea c xs W1 b1 W2 b2 (ix2 p q) = mlp ea W1 b1 W2 b2 (ix2 p q) * c (ix2 p 0) * xs (ix2 p q) := rfl

/-- Row `r` of the messages depends on row `r` of the attributes, of the envelope and of the gathered features. -/
theorem msg_rows {M Mb K H N : ℕ} (EA : Mat M K) (ea : Mat Mb K) (C : Mat M 1) (c : Mat Mb 1) (XS : Mat M N) (xs : Mat Mb N)
    (W1 W1' : Mat K H) (b1 b1' : Mat 1 H) (W2 W2' : Mat H N) (b2 b2' : Mat 1 N)
    (i : (⟨2, ![M, N]⟩ : Shape).Idx) (j : (⟨2, ![Mb, N]⟩ : Shape).Idx)
    (hea : ∀ g : Fin K, ea (ix2 (j 0) g) = EA (ix2 (i 0) g))
    (hc : c (ix2 (j 0) 0) = C (ix2 (i 0) 0))
    (hxs : xs (ix2 (j 0) (j 1)) = XS (ix2 (i 0) (i 1)))
    (hW1 : ∀ (g : Fin K) (h : Fin H), W1' (ix2 g h) = W1 (ix2 g h))
    (hb1 : ∀ h : Fin H, b1' (ix2 0 h) = b1 (ix2 0 h))
    (hW2 : ∀ h : Fin H, W2' (ix2 h (j 1)) = W2 (ix2 h (i 1)))
    (hb2 : b2' (ix2 0 (j 1)) = b2 (ix2 0 (i 1))) :
    msg ea c xs W1' b1' W2' b2' j = msg EA C XS W1 b1 W2 b2 i := by
  unfold msg
  rw [hc, hxs, mlp_rows EA ea W1 W1' b1 b1' W2 W2' b2 b2' i j hea hW1 hb1 hW2 hb2]

end Cert.Stage

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.Payloads.lean ====
/-
  What each kernel body stores, as a stage of the layer at block height.

  Each of the three bodies stores one value, a pure function of the blocks it loads. On the extended reals a change of float
  format is the identity and a matrix product into a zero accumulator is the plain sum over the contracted axis, so the
  projection body stores the product of its two blocks, the node body the two-layer perceptron of its row block, and the edge
  body the perceptron of its rows of attributes, scaled by the rows' envelope column and multiplied by the rows of gathered
  features. The activation is printed as `h · logistic h`, which is `silu h` by definition.
-/
import proofs.«159987_j18081812316197_1_alg».proof.Proof.Gen.KernelIdeal.Skeleton
import proofs.«159987_j18081812316197_1_alg».proof.Proof.Stages
import proofs.«159987_j18081812316197_1_alg».proof.Proof.LibPlainDot
import proofs.«159987_j18081812316197_1_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Stage

/-- The logistic function applied entry by entry, read at an index. -/
theorem logistic_apply {s : Shape} {φ : FTy} (a : FVec Ideal s φ) (i : s.Idx) : logistic a i = Ideal.logistic (a i) := rfl

/-! ## The matrix products into a zero accumulator, read at `(p, q)` -/

/-- A `[2000, 128]` block times a `[128, 128]` matrix. -/
theorem dot_node (l : FVec Ideal S2000x128 .bf16) (r : FVec Ideal S128x128 .bf16) (p : Fin 2000) (q : Fin 128) :
    FloatOps.matmul dot_S2000x128_S128x128_S2000x128_1_0_0_1_n_n none l r (constant (F := Ideal) S2000x128 .f32 0x00000000#32) (ix2 p q)
      = ∑ k : Fin 128, l (ix2 p k) * r (ix2 k q) :=
  Cert.Lib.PlainDot.matmul_zero_ix2 dot_S2000x128_S128x128_S2000x128_1_0_0_1_n_n rfl rfl
    (fun i q => by
      unfold DotDims.lhsIdx
      rw [dif_neg (show ¬(0 : Fin S2000x128.rank) ∈ dot_S2000x128_S128x128_S2000x128_1_0_0_1_n_n.lhsBatch by decide),
        dif_pos (show (0 : Fin S2000x128.rank) ∈ dot_S2000x128_S128x128_S2000x128_1_0_0_1_n_n.lhsNonContracting by decide)]
      rfl)
    (fun i q => dot_S2000x128_S128x128_S2000x128_1_0_0_1_n_n.lhsIdx_val_of_single rfl i q)
    (fun i q => dot_S2000x128_S128x128_S2000x128_1_0_0_1_n_n.rhsIdx_val_of_single rfl i q)
    (fun i q => by
      unfold DotDims.rhsIdx
      rw [dif_neg (show ¬(1 : Fin S128x128.rank) ∈ dot_S2000x128_S128x128_S2000x128_1_0_0_1_n_n.rhsBatch by decide),
        dif_pos (show (1 : Fin S128x128.rank) ∈ dot_S2000x128_S128x128_S2000x128_1_0_0_1_n_n.rhsNonContracting by decide)]
      rfl)
    none l r p q

/-- A `[6400, 50]` block times a `[50, 128]` matrix. -/
theorem dot_edge1 (l : FVec Ideal S6400x50 .bf16) (r : FVec Ideal S50x128 .bf16) (p : Fin 6400) (q : Fin 128) :
    FloatOps.matmul dot_S6400x50_S50x128_S6400x128_1_0_0_1_n_n none l r (constant (F := Ideal) S6400x128 .f32 0x00000000#32) (ix2 p q)
      = ∑ k : Fin 50, l (ix2 p k) * r (ix2 k q) :=
  Cert.Lib.PlainDot.matmul_zero_ix2 dot_S6400x50_S50x128_S6400x128_1_0_0_1_n_n rfl rfl
    (fun i q => by
      unfold DotDims.lhsIdx
      rw [dif_neg (show ¬(0 : Fin S6400x50.rank) ∈ dot_S6400x50_S50x128_S6400x128_1_0_0_1_n_n.lhsBatch by decide),
        dif_pos (show (0 : Fin S6400x50.rank) ∈ dot_S6400x50_S50x128_S6400x128_1_0_0_1_n_n.lhsNonContracting by decide)]
      rfl)
    (fun i q => dot_S6400x50_S50x128_S6400x128_1_0_0_1_n_n.lhsIdx_val_of_single rfl i q)
    (fun i q => dot_S6400x50_S50x128_S6400x128_1_0_0_1_n_n.rhsIdx_val_of_single rfl i q)
    (fun i q => by
      unfold DotDims.rhsIdx
      rw [dif_neg (show ¬(1 : Fin S50x128.rank) ∈ dot_S6400x50_S50x128_S6400x128_1_0_0_1_n_n.rhsBatch by decide),
        dif_pos (show (1 : Fin S50x128.rank) ∈ dot_S6400x50_S50x128_S6400x128_1_0_0_1_n_n.rhsNonContracting by decide)]
      rfl)
    none l r p q

/-- A `[6400, 128]` block times a `[128, 128]` matrix. -/
theorem dot_edge2 (l : FVec Ideal S6400x128 .bf16) (r : FVec Ideal S128x128 .bf16) (p : Fin 6400) (q : Fin 128) :
    FloatOps.matmul dot_S6400x128_S128x128_S6400x128_1_0_0_1_n_n none l r (constant (F := Ideal) S6400x128 .f32 0x00000000#32) (ix2 p q)
      = ∑ k : Fin 128, l (ix2 p k) * r (ix2 k q) :=
  Cert.Lib.PlainDot.matmul_zero_ix2 dot_S6400x128_S128x128_S6400x128_1_0_0_1_n_n rfl rfl
    (fun i q => by
      unfold DotDims.lhsIdx
      rw [dif_neg (show ¬(0 : Fin S6400x128.rank) ∈ dot_S6400x128_S128x128_S6400x128_1_0_0_1_n_n.lhsBatch by decide),
        dif_pos (show (0 : Fin S6400x128.rank) ∈ dot_S6400x128_S128x128_S6400x128_1_0_0_1_n_n.lhsNonContracting by decide)]
      rfl)
    (fun i q => dot_S6400x128_S128x128_S6400x128_1_0_0_1_n_n.lhsIdx_val_of_single rfl i q)
    (fun i q => dot_S6400x128_S128x128_S6400x128_1_0_0_1_n_n.rhsIdx_val_of_single rfl i q)
    (fun i q => by
      unfold DotDims.rhsIdx
      rw [dif_neg (show ¬(1 : Fin S128x128.rank) ∈ dot_S6400x128_S128x128_S6400x128_1_0_0_1_n_n.rhsBatch by decide),
        dif_pos (show (1 : Fin S128x128.rank) ∈ dot_S6400x128_S128x128_S6400x128_1_0_0_1_n_n.rhsNonContracting by decide)]
      rfl)
    none l r p q

/-! ## An affine layer: the product plus a bias row added to every row -/

/-- At block height 2000, contracting 128 columns. -/
theorem layer_node (l : FVec Ideal S2000x128 .bf16) (r : FVec Ideal S128x128 .bf16) (b : FVec Ideal S1x128 .f32) (p : Fin 2000) (q : Fin 128) :
    addf (FloatOps.matmul dot_S2000x128_S128x128_S2000x128_1_0_0_1_n_n none l r (constant (F := Ideal) S2000x128 .f32 0x00000000#32))
        (broadcastTo S2000x128 b broadcasts_S1x128_S2000x128) (ix2 p q)
      = (∑ k : Fin 128, l (ix2 p k) * r (ix2 k q)) + b (ix2 (0 : Fin 1) q) := by
  rw [addf_apply, dot_node, broadcastTo_1b_ab_apply]

/-- At block height 6400, contracting the 50 attribute columns. -/
theorem layer_edge1 (l : FVec Ideal S6400x50 .bf16) (r : FVec Ideal S50x128 .bf16) (b : FVec Ideal S1x128 .f32) (p : Fin 6400) (q : Fin 128) :
    addf (FloatOps.matmul dot_S6400x50_S50x128_S6400x128_1_0_0_1_n_n none l r (constant (F := Ideal) S6400x128 .f32 0x00000000#32))
        (broadcastTo S6400x128 b broadcasts_S1x128_S6400x128) (ix2 p q)
      = (∑ k : Fin 50, l (ix2 p k) * r (ix2 k q)) + b (ix2 (0 : Fin 1) q) := by
  rw [addf_apply, dot_edge1, broadcastTo_1b_ab_apply]

/-- At block height 6400, contracting 128 columns. -/
theorem layer_edge2 (l : FVec Ideal S6400x128 .bf16) (r : FVec Ideal S128x128 .bf16) (b : FVec Ideal S1x128 .f32) (p : Fin 6400) (q : Fin 128) :
    addf (FloatOps.matmul dot_S6400x128_S128x128_S6400x128_1_0_0_1_n_n none l r (constant (F := Ideal) S6400x128 .f32 0x00000000#32))
        (broadcastTo S6400x128 b broadcasts_S1x128_S6400x128) (ix2 p q)
      = (∑ k : Fin 128, l (ix2 p k) * r (ix2 k q)) + b (ix2 (0 : Fin 1) q) := by
  rw [addf_apply, dot_edge2, broadcastTo_1b_ab_apply]

/-! ## The three bodies -/

/-- The projection body stores the product of its row block with the weight block. -/
theorem proj_body (v0 : Vec Ideal S2000x128 .f32) (v2 : Vec Ideal S128x128 .f32) :
    k0_pay1 v0 v2 = proj (M := 2000) (K := 128) (N := 128) v0 v2 := by
  funext j
  obtain ⟨p, q, rfl⟩ : ∃ (p : Fin 2000) (q : Fin 128), j = ix2 p q := ⟨j 0, j 1, eq_ix2 j⟩
  unfold k0_pay1
  rw [shapeCast_self]
  refine (dot_node _ _ p q).trans ?_
  rfl

/-- The node body stores the two-layer perceptron of its row block. -/
theorem node_body (v0 : Vec Ideal S2000x128 .f32) (v3 : Vec Ideal S128x128 .f32) (v7 : Vec Ideal S1x128 .f32)
    (v14 : Vec Ideal S128x128 .f32) (v18 : Vec Ideal S1x128 .f32) :
    k2_pay1 v0 v3 v7 v14 v18 = mlp (M := 2000) (K := 128) (H := 128) (N := 128) v0 v3 v7 v14 v18 := by
  funext j
  obtain ⟨p, q, rfl⟩ : ∃ (p : Fin 2000) (q : Fin 128), j = ix2 p q := ⟨j 0, j 1, eq_ix2 j⟩
  unfold k2_pay1
  simp only [shapeCast_self]
  rw [layer_node, mlp_ix2]
  congr 1
  refine Finset.sum_congr rfl fun k _ => ?_
  simp only [truncf_apply, mulf_apply, logistic_apply]
  rw [layer_node]
  rfl

/-- The edge body stores the perceptron of its rows of attributes, times the rows' envelope, times the gathered rows. -/
theorem edge_body (v0 : Vec Ideal S6400x50 .f32) (v2 : Vec Ideal S50x128 .f32) (v6 : Vec Ideal S1x128 .f32)
    (v13 : Vec Ideal S128x128 .f32) (v17 : Vec Ideal S1x128 .f32) (v21 : Vec Ideal S6400x1 .f32) (v26 : Vec Ideal S6400x128 .f32) :
    k1_pay1 v0 v2 v6 v13 v17 v21 v26
      = msg (M := 6400) (K := 50) (H := 128) (N := 128) v0 v21 v26 v2 v6 v13 v17 := by
  funext j
  obtain ⟨p, q, rfl⟩ : ∃ (p : Fin 6400) (q : Fin 128), j = ix2 p q := ⟨j 0, j 1, eq_ix2 j⟩
  unfold k1_pay1
  simp only [shapeCast_self]
  rw [mulf_apply, mulf_apply, layer_edge2, Cert.Lib.Columns.broadcastTo_a1_ab_apply, msg_ix2, mlp_ix2]
  congr 3
  refine Finset.sum_congr rfl fun k _ => ?_
  simp only [truncf_apply, mulf_apply, logistic_apply]
  rw [layer_edge1]
  rfl

end Cert.KernelIdeal.Pay

end
-- ==== Proof.ProjBlocks.lean ====
/-
  The projection launch: its result array as one function of the arrays it is entered with.

  The grid has ten points; point `t` reads rows `2000·t … 2000·t + 1999` of the node features and the whole weight matrix, and
  writes back the same rows of the result. What it writes is the product of its row block with the weights, which is the row
  block of the product of the whole matrices; the ten blocks tile the result, so the array ends holding the whole product.
-/
import proofs.«159987_j18081812316197_1_alg».proof.Proof.Gen.KernelIdeal.Frame
import proofs.«159987_j18081812316197_1_alg».proof.Proof.Payloads
import Idealize.ShloMosaic.Lib.Pipeline.Value

set_option maxRecDepth 16384

noncomputable section

namespace Cert.KernelIdeal.ProjBlocks

open Cert.KernelIdeal Cert.KernelIdeal.Gen Idealize.ShloMosaic Idealize.ShloMosaic.TcCoe Idealize.SL.Sem
open Idealize.ShloMosaic.ValueIdx Cert.Stage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the features' and the result's blocks are block row `t`, the weights' block is the
    whole matrix. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the whole arrays. -/
theorem flushed (c : Dev nD) (t : Fin cfg0.N) :
    (dat0 V c).flushed 2 t = ((cfg0.win 2).blk t).view.read (Elt Ideal)
      (proj (M := 20000) (K := 128) (N := 128) (V c main_arg0) (V c main_v0)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  rw [Pay.proj_body]
  obtain ⟨e00, e01, e10, e11, e20, e21⟩ := idx t
  funext j
  show proj (M := 2000) (K := 128) (N := 128) (iblk0 V c 0 t) (iblk0 V c 1 t) j
    = proj (M := 20000) (K := 128) (N := 128) (V c main_arg0) (V c main_v0) (((cfg0.win 2).blk t).view.emb j)
  refine proj_rows _ _ _ _ _ j (fun k => ?_) (fun k => ?_)
  · show V c main_arg0 (((cfg0.win 0).blk t).view.emb (ix2 (j 0) k))
      = V c main_arg0 (ix2 ((((cfg0.win 2).blk t).view.emb j) 0) k)
    congr 1; funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · show V c main_v0 (((cfg0.win 1).blk t).view.emb (ix2 k (j 1)))
      = V c main_v0 (ix2 k ((((cfg0.win 2).blk t).view.emb j) 1))
    congr 1; funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result is in point `t`'s block iff each coordinate is in the block's range on its axis. -/
theorem mem_blk (t : Fin cfg0.N) (i : S20000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v9).slice (win0_2.rect t)).set ↔ _
  rw [View.set_slice_whole, Rect.mem_set_unit]
  exact Iff.rfl

/-- Row `r` of the result is in the block of point `r / 2000`. -/
theorem cover (i : S20000x128.Idx) : ∃ t : Fin cfg0.N, (cfg0.win 2).flush t = true ∧ i ∈ ((cfg0.win 2).blk t).view.set := by
  have hi0 : (i 0).val < 20000 := (i 0).isLt
  have hi1 : (i 1).val < 128 := (i 1).isLt
  have hN : cfg0.N = 10 := N_0
  obtain ⟨t, ht⟩ : ∃ t : Fin cfg0.N, t.val = (i 0).val / 2000 := ⟨⟨(i 0).val / 2000, by rw [hN]; omega⟩, rfl⟩
  obtain ⟨e00, e01, e10, e11, e20, e21⟩ := idx t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the launch is the product of the features with the weights, as entered. -/
theorem final (c : Dev nD) : (dat0 V c).arrAt 2 cfg0.N
    = proj (M := 20000) (K := 128) (N := 128) (V c main_arg0) (V c main_v0) :=
  (dat0 V c).arrAt_eq_of_cover 2 _ (fun t _ => flushed V c t) cover

end Cert.KernelIdeal.ProjBlocks

end
-- ==== Proof.EdgeBlocks.lean ====
/-
  The edge launch: its result array as one function of the arrays it is entered with.

  A hundred grid points; point `t` reads rows `6400·t … 6400·t + 6399` of the edge attributes, of the envelope column and of the
  gathered node features, and the whole of two weight matrices and two bias rows, and writes back the same rows of the messages:
  the message stage of its row blocks, which is the row block of the message stage of the whole arrays. The hundred blocks tile
  the result.
-/
import proofs.«159987_j18081812316197_1_alg».proof.Proof.Gen.KernelIdeal.Frame
import proofs.«159987_j18081812316197_1_alg».proof.Proof.Payloads
import Idealize.ShloMosaic.Lib.Pipeline.Value

set_option maxRecDepth 16384

noncomputable section

namespace Cert.KernelIdeal.EdgeBlocks

open Cert.KernelIdeal Cert.KernelIdeal.Gen Idealize.ShloMosaic Idealize.ShloMosaic.TcCoe Idealize.SL.Sem
open Idealize.ShloMosaic.ValueIdx Cert.Stage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three per-edge operands' and the result's blocks are block row `t`, every other block is its whole array. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- What point `t` writes back is block `t` of the messages of the whole arrays. -/
theorem flushed (c : Dev nD) (t : Fin cfg1.N) :
    (dat1 V c).flushed 7 t = ((cfg1.win 7).blk t).view.read (Elt Ideal)
      (msg (M := 640000) (K := 50) (H := 128) (N := 128) (V c main_arg3) (V c main_v28) (V c main_v20) (V c main_v1) (V c main_v5)
        (V c main_v2) (V c main_v6)) := by
  show (cfg1.win 7).cut (grid1.coords t) ((dat1 V c).after 7 t) = _
  rw [after1_7]
  unfold out1_7
  rw [View.canon_unit_zero hz]
  simp only [View.ld_unit_zero (S := S6400x50) hz, View.ld_unit_zero (S := S50x128) hz, View.ld_unit_zero (S := S1x128) hz,
    View.ld_unit_zero (S := S128x128) hz, View.ld_unit_zero (S := S6400x1) hz, View.ld_unit_zero (S := S6400x128) hz]
  rw [Pay.edge_body]
  obtain ⟨e00, e01, e10, e11, e20, e21, e30, e31, e40, e41, e50, e51, e60, e61, e70, e71⟩ := idx t
  funext j
  show msg (M := 6400) (K := 50) (H := 128) (N := 128) (iblk1 V c 0 t) (iblk1 V c 1 t) (iblk1 V c 2 t) (iblk1 V c 3 t) (iblk1 V c 4 t)
      (iblk1 V c 5 t) (iblk1 V c 6 t) j
    = msg (M := 640000) (K := 50) (H := 128) (N := 128) (V c main_arg3) (V c main_v28) (V c main_v20) (V c main_v1) (V c main_v5)
        (V c main_v2) (V c main_v6) (((cfg1.win 7).blk t).view.emb j)
  refine msg_rows _ _ _ _ _ _ _ _ _ _ _ _ _ _ _ j (fun g => ?_) ?_ ?_ (fun g h => ?_) (fun h => ?_) (fun h => ?_) ?_
  · show V c main_arg3 (((cfg1.win 0).blk t).view.emb (ix2 (j 0) g))
      = V c main_arg3 (ix2 ((((cfg1.win 7).blk t).view.emb j) 0) g)
    congr 1; funext a; apply Fin.ext
    match a with
    | ⟨0, _⟩ => show win1_0.index t (0 : Fin 2) * 6400 + 1 * (j 0).val = win1_7.index t (0 : Fin 2) * 6400 + 1 * (j 0).val; omega
    | ⟨1, _⟩ => show win1_0.index t (1 : Fin 2) * 50 + 1 * g.val = g.val; omega
  · show V c main_v28 (((cfg1.win 1).blk t).view.emb (ix2 (j 0) (0 : Fin 1)))
      = V c main_v28 (ix2 ((((cfg1.win 7).blk t).view.emb j) 0) (0 : Fin 1))
    congr 1; funext a; apply Fin.ext
    match a with
    | ⟨0, _⟩ => show win1_1.index t (0 : Fin 2) * 6400 + 1 * (j 0).val = win1_7.index t (0 : Fin 2) * 6400 + 1 * (j 0).val; omega
    | ⟨1, _⟩ => show win1_1.index t (1 : Fin 2) * 1 + 1 * 0 = 0; omega
  · show V c main_v20 (((cfg1.win 2).blk t).view.emb (ix2 (j 0) (j 1)))
      = V c main_v20 (ix2 ((((cfg1.win 7).blk t).view.emb j) 0) ((((cfg1.win 7).blk t).view.emb j) 1))
    congr 1; funext a; apply Fin.ext
    match a with
    | ⟨0, _⟩ => show win1_2.index t (0 : Fin 2) * 6400 + 1 * (j 0).val = win1_7.index t (0 : Fin 2) * 6400 + 1 * (j 0).val; omega
    | ⟨1, _⟩ => show win1_2.index t (1 : Fin 2) * 128 + 1 * (j 1).val = win1_7.index t (1 : Fin 2) * 128 + 1 * (j 1).val; omega
  · show V c main_v1 (((cfg1.win 3).blk t).view.emb (ix2 g h)) = V c main_v1 (ix2 g h)
    congr 1; funext a; apply Fin.ext
    match a with
    | ⟨0, _⟩ => show win1_3.index t (0 : Fin 2) * 50 + 1 * g.val = g.val; omega
    | ⟨1, _⟩ => show win1_3.index t (1 : Fin 2) * 128 + 1 * h.val = h.val; omega
  · show V c main_v5 (((cfg1.win 4).blk t).view.emb (ix2 (0 : Fin 1) h)) = V c main_v5 (ix2 (0 : Fin 1) h)
    congr 1; funext a; apply Fin.ext
    match a with
    | ⟨0, _⟩ => show win1_4.index t (0 : Fin 2) * 1 + 1 * 0 = 0; omega
    | ⟨1, _⟩ => show win1_4.index t (1 : Fin 2) * 128 + 1 * h.val = h.val; omega
  · show V c main_v2 (((cfg1.win 5).blk t).view.emb (ix2 h (j 1)))
      = V c main_v2 (ix2 h ((((cfg1.win 7).blk t).view.emb j) 1))
    congr 1; funext a; apply Fin.ext
    match a with
    | ⟨0, _⟩ => show win1_5.index t (0 : Fin 2) * 128 + 1 * h.val = h.val; omega
    | ⟨1, _⟩ => show win1_5.index t (1 : Fin 2) * 128 + 1 * (j 1).val = win1_7.index t (1 : Fin 2) * 128 + 1 * (j 1).val; omega
  · show V c main_v6 (((cfg1.win 6).blk t).view.emb (ix2 (0 : Fin 1) (j 1)))
      = V c main_v6 (ix2 (0 : Fin 1) ((((cfg1.win 7).blk t).view.emb j) 1))
    congr 1; funext a; apply Fin.ext
    match a with
    | ⟨0, _⟩ => show win1_6.index t (0 : Fin 2) * 1 + 1 * 0 = 0; omega
    | ⟨1, _⟩ => show win1_6.index t (1 : Fin 2) * 128 + 1 * (j 1).val = win1_7.index t (1 : Fin 2) * 128 + 1 * (j 1).val; omega

/-- An index of the result is in point `t`'s block iff each coordinate is in the block's range on its axis. -/
theorem mem_blk (t : Fin cfg1.N) (i : S640000x128.Idx) :
    i ∈ ((cfg1.win 7).blk t).view.set ↔ ∀ a : Fin 2, win1_7.index t a * S6400x128.size a ≤ (i a).val
      ∧ (i a).val < win1_7.index t a * S6400x128.size a + S6400x128.size a := by
  show i ∈ ((View.whole main_v29).slice (win1_7.rect t)).set ↔ _
  rw [View.set_slice_whole, Rect.mem_set_unit]
  exact Iff.rfl

/-- Row `r` of the result is in the block of point `r / 6400`. -/
theorem cover (i : S640000x128.Idx) : ∃ t : Fin cfg1.N, (cfg1.win 7).flush t = true ∧ i ∈ ((cfg1.win 7).blk t).view.set := by
  have hi0 : (i 0).val < 640000 := (i 0).isLt
  have hi1 : (i 1).val < 128 := (i 1).isLt
  have hN : cfg1.N = 100 := N_1
  obtain ⟨t, ht⟩ : ∃ t : Fin cfg1.N, t.val = (i 0).val / 6400 := ⟨⟨(i 0).val / 6400, by rw [hN]; omega⟩, rfl⟩
  obtain ⟨e00, e01, e10, e11, e20, e21, e30, e31, e40, e41, e50, e51, e60, e61, e70, e71⟩ := idx t
  refine ⟨t, flush1_7 t, ?_⟩
  rw [mem_blk]
  intro a
  match a with
  | ⟨0, _⟩ => show win1_7.index t (0 : Fin 2) * 6400 ≤ (i 0).val ∧ (i 0).val < win1_7.index t (0 : Fin 2) * 6400 + 6400; omega
  | ⟨1, _⟩ => show win1_7.index t (1 : Fin 2) * 128 ≤ (i 1).val ∧ (i 1).val < win1_7.index t (1 : Fin 2) * 128 + 128; omega

/-- The message array after the launch is the message stage of the arrays as entered. -/
theorem final (c : Dev nD) : (dat1 V c).arrAt 7 cfg1.N
    = msg (M := 640000) (K := 50) (H := 128) (N := 128) (V c main_arg3) (V c main_v28) (V c main_v20) (V c main_v1) (V c main_v5)
        (V c main_v2) (V c main_v6) :=
  (dat1 V c).arrAt_eq_of_cover 7 _ (fun t _ => flushed V c t) cover

end Cert.KernelIdeal.EdgeBlocks

end
-- ==== Proof.NodeBlocks.lean ====
/-
  The node launch: its result array as one function of the arrays it is entered with.

  Ten grid points; point `t` reads rows `2000·t … 2000·t + 1999` of the per-node sums and the whole of two weight matrices and
  two bias rows, and writes back the same rows of the result: the two-layer perceptron of its row block, which is the row block
  of the perceptron of the whole array. The ten blocks tile the result.
-/
import proofs.«159987_j18081812316197_1_alg».proof.Proof.Gen.KernelIdeal.Frame
import proofs.«159987_j18081812316197_1_alg».proof.Proof.Payloads
import Idealize.ShloMosaic.Lib.Pipeline.Value

set_option maxRecDepth 16384

noncomputable section

namespace Cert.KernelIdeal.NodeBlocks

open Cert.KernelIdeal Cert.KernelIdeal.Gen Idealize.ShloMosaic Idealize.ShloMosaic.TcCoe Idealize.SL.Sem
open Idealize.ShloMosaic.ValueIdx Cert.Stage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the sums' and the result's blocks are block row `t`, every other block is its whole array. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the perceptron of the whole arrays. -/
theorem flushed (c : Dev nD) (t : Fin cfg2.N) :
    (dat2 V c).flushed 5 t = ((cfg2.win 5).blk t).view.read (Elt Ideal)
      (mlp (M := 20000) (K := 128) (H := 128) (N := 128) (V c main_v32) (V c main_v3) (V c main_v7) (V c main_v4) (V c main_v8)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz]
  rw [Pay.node_body]
  obtain ⟨e00, e01, e10, e11, e20, e21, e30, e31, e40, e41, e50, e51⟩ := idx t
  funext j
  show mlp (M := 2000) (K := 128) (H := 128) (N := 128) (iblk2 V c 0 t) (iblk2 V c 1 t) (iblk2 V c 2 t) (iblk2 V c 3 t) (iblk2 V c 4 t) j
    = mlp (M := 20000) (K := 128) (H := 128) (N := 128) (V c main_v32) (V c main_v3) (V c main_v7) (V c main_v4) (V c main_v8)
        (((cfg2.win 5).blk t).view.emb j)
  refine mlp_rows _ _ _ _ _ _ _ _ _ _ _ j (fun g => ?_) (fun g h => ?_) (fun h => ?_) (fun h => ?_) ?_
  · show V c main_v32 (((cfg2.win 0).blk t).view.emb (ix2 (j 0) g))
      = V c main_v32 (ix2 ((((cfg2.win 5).blk t).view.emb j) 0) g)
    congr 1; funext a; apply Fin.ext
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 128 + 1 * g.val = g.val; omega
  · show V c main_v3 (((cfg2.win 1).blk t).view.emb (ix2 g h)) = V c main_v3 (ix2 g h)
    congr 1; funext a; apply Fin.ext
    match a with
    | ⟨0, _⟩ => show win2_1.index t (0 : Fin 2) * 128 + 1 * g.val = g.val; omega
    | ⟨1, _⟩ => show win2_1.index t (1 : Fin 2) * 128 + 1 * h.val = h.val; omega
  · show V c main_v7 (((cfg2.win 2).blk t).view.emb (ix2 (0 : Fin 1) h)) = V c main_v7 (ix2 (0 : Fin 1) h)
    congr 1; funext a; apply Fin.ext
    match a with
    | ⟨0, _⟩ => show win2_2.index t (0 : Fin 2) * 1 + 1 * 0 = 0; omega
    | ⟨1, _⟩ => show win2_2.index t (1 : Fin 2) * 128 + 1 * h.val = h.val; omega
  · show V c main_v4 (((cfg2.win 3).blk t).view.emb (ix2 h (j 1)))
      = V c main_v4 (ix2 h ((((cfg2.win 5).blk t).view.emb j) 1))
    congr 1; funext a; apply Fin.ext
    match a with
    | ⟨0, _⟩ => show win2_3.index t (0 : Fin 2) * 128 + 1 * h.val = h.val; omega
    | ⟨1, _⟩ => show win2_3.index t (1 : Fin 2) * 128 + 1 * (j 1).val = win2_5.index t (1 : Fin 2) * 128 + 1 * (j 1).val; omega
  · show V c main_v8 (((cfg2.win 4).blk t).view.emb (ix2 (0 : Fin 1) (j 1)))
      = V c main_v8 (ix2 (0 : Fin 1) ((((cfg2.win 5).blk t).view.emb j) 1))
    congr 1; funext a; apply Fin.ext
    match a with
    | ⟨0, _⟩ => show win2_4.index t (0 : Fin 2) * 1 + 1 * 0 = 0; omega
    | ⟨1, _⟩ => show win2_4.index t (1 : Fin 2) * 128 + 1 * (j 1).val = win2_5.index t (1 : Fin 2) * 128 + 1 * (j 1).val; omega

/-- An index of the result is in point `t`'s block iff each coordinate is in the block's range on its axis. -/
theorem mem_blk (t : Fin cfg2.N) (i : S20000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v33).slice (win2_5.rect t)).set ↔ _
  rw [View.set_slice_whole, Rect.mem_set_unit]
  exact Iff.rfl

/-- Row `r` of the result is in the block of point `r / 2000`. -/
theorem cover (i : S20000x128.Idx) : ∃ t : Fin cfg2.N, (cfg2.win 5).flush t = true ∧ i ∈ ((cfg2.win 5).blk t).view.set := by
  have hi0 : (i 0).val < 20000 := (i 0).isLt
  have hi1 : (i 1).val < 128 := (i 1).isLt
  have hN : cfg2.N = 10 := N_2
  obtain ⟨t, ht⟩ : ∃ t : Fin cfg2.N, t.val = (i 0).val / 2000 := ⟨⟨(i 0).val / 2000, by rw [hN]; omega⟩, rfl⟩
  obtain ⟨e00, e01, e10, e11, e20, e21, e30, e31, e40, e41, e50, e51⟩ := idx t
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The result array after the launch is the perceptron of the per-node sums, as entered. -/
theorem final (c : Dev nD) : (dat2 V c).arrAt 5 cfg2.N
    = mlp (M := 20000) (K := 128) (H := 128) (N := 128) (V c main_v32) (V c main_v3) (V c main_v7) (V c main_v4) (V c main_v8) :=
  (dat2 V c).arrAt_eq_of_cover 5 _ (fun t _ => flushed V c t) cover

end Cert.KernelIdeal.NodeBlocks

end
-- ==== Proof.RefStages.lean ====
/-
  The reference's three stages, read one operation at a time, are the stage functions of its own operands.

  The reference computes the projection as one matrix product, the messages as the gathered projection times the enveloped
  filter, and the result as a perceptron of the per-node sums; its activation is spelled `h · (1 / (1 + e^(−h)))` with the
  constant `1.0`, which on the extended reals is `h · σ(h)` by the definition of the logistic function once the constant's
  pattern is read as the real `1`. The messages differ from the kernel's only in the order of the last product, so the one law
  used is commutativity of multiplication, which holds on all of the extended reals: nothing here needs a finite input.
-/
import proofs.«159987_j18081812316197_1_alg».proof.Proof.Gen.ReferenceIdeal.Read
import proofs.«159987_j18081812316197_1_alg».proof.Proof.Stages

noncomputable section

namespace Cert.ReferenceIdeal.RefStage

open Cert.ReferenceIdeal Cert.ReferenceIdeal.Gen Cert.ReferenceIdeal.Read
open Idealize.ShloMosaic Idealize.ShloMosaic.ValueIdx Cert.Stage

/-- The pattern of `1.0` denotes the real `1`. -/
theorem ofBits_one : Ideal.ofBits .f32 0x3F800000#32 = 1 := by
  simp [Ideal.ofBits, Ideal.ieee, -EReal.coe_mul]; norm_num

/-- The host's spelling of the activation, `h · (1 / (1 + e^(−h)))`, is `silu h`. -/
theorem host_silu (h : Ideal .f32) :
    FloatOps.mulf h (FloatOps.hostDivf (FloatOps.ofBits .f32 0x3F800000#32)
      (FloatOps.addf (FloatOps.ofBits .f32 0x3F800000#32) (FloatOps.hostUnary .exp (FloatOps.hostNegf h)))) = silu h := by
  simp only [Ideal.mulf_def, Ideal.hostDivf_def, Ideal.ofBits_def, Ideal.addf_def, Ideal.hostUnary_exp_def, Ideal.hostNegf_def,
    Ideal.negf_def, ofBits_one]
  rfl

variable (x0 : (⟨S20000x128, .f32⟩ : BufTy).Contents (Elt Ideal)) (x1 : (⟨S2x640000, .i32⟩ : BufTy).Contents (Elt Ideal)) (x2 : (⟨S640000, .f32⟩ : BufTy).Contents (Elt Ideal))
  (x3 : (⟨S640000x50, .f32⟩ : BufTy).Contents (Elt Ideal)) (x4 : (⟨S128x50, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))
  (x8 x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal))

/-! ## The projection -/

/-- The reference's projection is the product of the features with the transposed weights. -/
theorem ref_proj : val_main_v22 (F := Ideal) x0 x8
    = proj (M := 20000) (K := 128) (N := 128) x0 (val_main_v21 (F := Ideal) x8) := by
  funext i
  obtain ⟨p, q, rfl⟩ : ∃ (p : Fin 20000) (q : Fin 128), i = ix2 p q := ⟨i 0, i 1, eq_ix2 i⟩
  rw [val_main_v22_apply, proj_ix2]
  refine Finset.sum_congr rfl fun k _ => ?_
  rw [show lidx_main_v22 (ix2 p q) k = ix2 p k from (funext fun a => Fin.ext (by match a with | ⟨0, _⟩ => rfl | ⟨1, _⟩ => rfl)),
    show ridx_main_v22 (ix2 p q) k = ix2 k q from (funext fun a => Fin.ext (by match a with | ⟨0, _⟩ => rfl | ⟨1, _⟩ => rfl))]

/-! ## The messages -/

/-- The filter's hidden layer at `(p, j)`. -/
theorem msg_hidden (p : Fin 640000) (j : Fin 128) :
    val_main_v12 (F := Ideal) x3 x4 x5 (ix2 p j)
      = silu ((∑ g : Fin 50, x3 (ix2 p g) * val_main_v7 (F := Ideal) x4 (ix2 g j)) + val_main_v9 (F := Ideal) x5 (ix2 0 j)) := by
  rw [val_main_v12_apply, val_main_call0_v5_apply, val_main_call0_v4_apply, val_main_call0_cst_0_apply, val_main_call0_v3_apply,
    val_main_call0_v2_apply, val_main_call0_cst_apply, val_main_call0_v1_apply, val_main_call0_v0_apply, host_silu,
    val_main_v11_apply, val_main_v8_apply, val_main_v10_apply,
    show idx_main_v10 (ix2 p j) = ix2 0 j from (funext fun a => Fin.ext (by match a with | ⟨0, _⟩ => rfl | ⟨1, _⟩ => rfl)), Ideal.addf_def]
  congr 2
  refine Finset.sum_congr rfl fun g _ => ?_
  rw [show lidx_main_v8 (ix2 p j) g = ix2 p g from (funext fun a => Fin.ext (by match a with | ⟨0, _⟩ => rfl | ⟨1, _⟩ => rfl)),
    show ridx_main_v8 (ix2 p j) g = ix2 g j from (funext fun a => Fin.ext (by match a with | ⟨0, _⟩ => rfl | ⟨1, _⟩ => rfl))]

/-- The reference's messages are the message stage of its operands. -/
theorem ref_msg : val_main_v32 (F := Ideal) x0 x1 x2 x3 x4 x5 x6 x7 x8
    = msg (M := 640000) (K := 50) (H := 128) (N := 128) x3 (val_main_v18 (F := Ideal) x2) (val_main_v31 (F := Ideal) x0 x1 x8)
        (val_main_v7 (F := Ideal) x4) (val_main_v9 (F := Ideal) x5) (val_main_v13 (F := Ideal) x6) (val_main_v15 (F := Ideal) x7) := by
  funext i
  obtain ⟨p, q, rfl⟩ : ∃ (p : Fin 640000) (q : Fin 128), i = ix2 p q := ⟨i 0, i 1, eq_ix2 i⟩
  rw [val_main_v32_apply, val_main_v20_apply, val_main_v19_apply,
    show idx_main_v19 (ix2 p q) = ix2 p 0 from (funext fun a => Fin.ext (by match a with | ⟨0, _⟩ => rfl | ⟨1, _⟩ => rfl)),
    val_main_v17_apply, val_main_v14_apply, val_main_v16_apply,
    show idx_main_v16 (ix2 p q) = ix2 0 q from (funext fun a => Fin.ext (by match a with | ⟨0, _⟩ => rfl | ⟨1, _⟩ => rfl)),
    msg_ix2, mlp_ix2, Ideal.mulf_def, Ideal.mulf_def, Ideal.addf_def]
  refine (mul_comm _ _).trans ?_
  congr 3
  refine Finset.sum_congr rfl fun j _ => ?_
  rw [show lidx_main_v14 (ix2 p q) j = ix2 p j from (funext fun a => Fin.ext (by match a with | ⟨0, _⟩ => rfl | ⟨1, _⟩ => rfl)),
    show ridx_main_v14 (ix2 p q) j = ix2 j q from (funext fun a => Fin.ext (by match a with | ⟨0, _⟩ => rfl | ⟨1, _⟩ => rfl)), msg_hidden]

/-! ## The result -/

/-- The node perceptron's hidden layer at `(p, k)`. -/
theorem out_hidden (p : Fin 20000) (k : Fin 128) :
    val_main_v43 (F := Ideal) x0 x1 x2 x3 x4 x5 x6 x7 x8 x9 x10 (ix2 p k)
      = silu ((∑ g : Fin 128, val_main_v37 (F := Ideal) x0 x1 x2 x3 x4 x5 x6 x7 x8 (ix2 p g) * val_main_v38 (F := Ideal) x9 (ix2 g k))
          + val_main_v40 (F := Ideal) x10 (ix2 0 k)) := by
  rw [val_main_v43_apply, val_main_call1_v5_apply, val_main_call1_v4_apply, val_main_call1_cst_0_apply, val_main_call1_v3_apply,
    val_main_call1_v2_apply, val_main_call1_cst_apply, val_main_call1_v1_apply, val_main_call1_v0_apply, host_silu,
    val_main_v42_apply, val_main_v39_apply, val_main_v41_apply,
    show idx_main_v41 (ix2 p k) = ix2 0 k from (funext fun a => Fin.ext (by match a with | ⟨0, _⟩ => rfl | ⟨1, _⟩ => rfl)), Ideal.addf_def]
  refine congrArg (fun z => silu (z + val_main_v40 (F := Ideal) x10 (ix2 0 k))) ?_
  refine Finset.sum_congr rfl fun g _ => ?_
  rw [show lidx_main_v39 (ix2 p k) g = ix2 p g from (funext fun a => Fin.ext (by match a with | ⟨0, _⟩ => rfl | ⟨1, _⟩ => rfl)),
    show ridx_main_v39 (ix2 p k) g = ix2 g k from (funext fun a => Fin.ext (by match a with | ⟨0, _⟩ => rfl | ⟨1, _⟩ => rfl))]

/-- The reference's result is the perceptron of its per-node sums. -/
theorem ref_out : val_main_v48 (F := Ideal) x0 x1 x2 x3 x4 x5 x6 x7 x8 x9 x10 x11 x12
    = mlp (M := 20000) (K := 128) (H := 128) (N := 128) (val_main_v37 (F := Ideal) x0 x1 x2 x3 x4 x5 x6 x7 x8)
        (val_main_v38 (F := Ideal) x9) (val_main_v40 (F := Ideal) x10) (val_main_v44 (F := Ideal) x11) (val_main_v46 (F := Ideal) x12) := by
  funext i
  obtain ⟨p, q, rfl⟩ : ∃ (p : Fin 20000) (q : Fin 128), i = ix2 p q := ⟨i 0, i 1, eq_ix2 i⟩
  rw [val_main_v48_apply, val_main_v45_apply, val_main_v47_apply,
    show idx_main_v47 (ix2 p q) = ix2 0 q from (funext fun a => Fin.ext (by match a with | ⟨0, _⟩ => rfl | ⟨1, _⟩ => rfl)), mlp_ix2, Ideal.addf_def]
  refine congrArg (fun z => z + val_main_v46 (F := Ideal) x12 (ix2 0 q)) ?_
  refine Finset.sum_congr rfl fun k _ => ?_
  rw [show lidx_main_v45 (ix2 p q) k = ix2 p k from (funext fun a => Fin.ext (by match a with | ⟨0, _⟩ => rfl | ⟨1, _⟩ => rfl)),
    show ridx_main_v45 (ix2 p q) k = ix2 k q from (funext fun a => Fin.ext (by match a with | ⟨0, _⟩ => rfl | ⟨1, _⟩ => rfl)), out_hidden]

end Cert.ReferenceIdeal.RefStage

end
-- ==== Proof.Bridge.lean ====
/-
  The idealized kernel's buffers at each boundary of its run, as the reference's stages of the launch arrays.

  Walking the run's fold from the launch: the first stretch of host operations transposes the five weight matrices and lays
  the four bias vectors out as rows; the projection launch leaves the product of the node features with the transposed weights;
  the second stretch gathers that product's rows by source node and computes the cosine envelope as a column; the edge launch
  leaves the messages; the third stretch adds the messages up per target node; the node launch leaves the result. A buffer no
  later operation or launch writes keeps its contents across every boundary.

  Each of these is the term the reference's own run gives the same quantity: the transposes, the index arithmetic, the
  envelope, the gather and the scatter-add are the same operations applied to equal operands and are carried whole, never
  opened; the three launches meet the reference through the stage functions. A vector laid out as a `[1, n]` row by a cast (the
  kernel) or by a broadcast along a new axis (the reference) is the same array, and so is a vector laid out as a column.
-/
import proofs.«159987_j18081812316197_1_alg».proof.Proof.Gen.KernelIdeal.Frame
import proofs.«159987_j18081812316197_1_alg».proof.Proof.ProjBlocks
import proofs.«159987_j18081812316197_1_alg».proof.Proof.EdgeBlocks
import proofs.«159987_j18081812316197_1_alg».proof.Proof.NodeBlocks
import proofs.«159987_j18081812316197_1_alg».proof.Proof.RefStages
import proofs.«159987_j18081812316197_1_alg».proof.Proof.LibColumns
import Idealize.ShloMosaic.Lib.StableHlo.Run
import Idealize.ShloMosaic.Lib.ValueLayout

set_option maxRecDepth 16384

noncomputable section

namespace Cert.Bridge

open Cert.KernelIdeal Cert.KernelIdeal.Gen Idealize.ShloMosaic Idealize.ShloMosaic.TcCoe Idealize.SL.Sem
open Idealize.ShloMosaic.StableHlo Idealize.ShloMosaic.ValueIdx Cert.Stage
open Cert.ReferenceIdeal.Read Cert.ReferenceIdeal.RefStage

/-! ## A vector as a row and as a column: a cast and a broadcast along a new axis give one array -/

/-- A `[128]` vector cast to `[1, 128]` is the vector broadcast along a new leading axis. -/
theorem row_v9 (x : S128.Idx → EReal) : shapeCast S1x128 x shapeCasts_S128_S1x128 = val_main_v9 (F := Ideal) x := by
  funext i
  obtain ⟨u, q, rfl⟩ : ∃ (u : Fin 1) (q : Fin 128), i = ix2 u q := ⟨i 0, i 1, eq_ix2 i⟩
  rw [shapeCast_a_1a_apply, val_main_v9_apply]
  exact congrArg x (funext fun a => Fin.ext (by match a with | ⟨0, _⟩ => rfl))
theorem row_v15 (x : S128.Idx → EReal) : shapeCast S1x128 x shapeCasts_S128_S1x128 = val_main_v15 (F := Ideal) x := row_v9 x
theorem row_v40 (x : S128.Idx → EReal) : shapeCast S1x128 x shapeCasts_S128_S1x128 = val_main_v40 (F := Ideal) x := row_v9 x
theorem row_v46 (x : S128.Idx → EReal) : shapeCast S1x128 x shapeCasts_S128_S1x128 = val_main_v46 (F := Ideal) x := row_v9 x

/-- The envelope vector cast to a `[640000, 1]` column is the vector broadcast along a new trailing axis. -/
theorem col_v18 (x2 : S640000.Idx → EReal) (y : S640000.Idx → EReal) (hy : y = val_main_v6 (F := Ideal) x2) :
    shapeCast S640000x1 y shapeCasts_S640000_S640000x1 = val_main_v18 (F := Ideal) x2 := by
  subst hy
  funext i
  obtain ⟨p, z, rfl⟩ : ∃ (p : Fin 640000) (z : Fin 1), i = ix2 p z := ⟨i 0, i 1, eq_ix2 i⟩
  rw [Cert.Lib.Columns.shapeCast_a_a1_apply, val_main_v18_apply]
  exact congrArg _ (funext fun a => Fin.ext (by match a with | ⟨0, _⟩ => rfl))

variable (m : (ℓ : Loc nD τ sig) → Buf (Elt Ideal) ℓ) (ρ : Dev nD → PrngReg) (c : Dev nD)

/-! ## After the first stretch -/

theorem W1_main_arg0 : W1 m ρ c (Proc.devRef .tc main_arg0) = (m ((c : Thread nD τ).loc main_arg0)) := by
  show StableHlo.after hostOps0 (W0 m ρ c) (Proc.devRef .tc main_arg0) = _
  after_results
theorem W1_main_v0 : W1 m ρ c (Proc.devRef .tc main_v0) = val_main_v21 (F := Ideal) (m ((c : Thread nD τ).loc main_arg8)) := by
  show StableHlo.after hostOps0 (W0 m ρ c) (Proc.devRef .tc main_v0) = _
  after_results
  rfl
theorem W1_main_arg1 : W1 m ρ c (Proc.devRef .tc main_arg1) = (m ((c : Thread nD τ).loc main_arg1)) := by
  show StableHlo.after hostOps0 (W0 m ρ c) (Proc.devRef .tc main_arg1) = _
  after_results
theorem W1_main_arg2 : W1 m ρ c (Proc.devRef .tc main_arg2) = (m ((c : Thread nD τ).loc main_arg2)) := by
  show StableHlo.after hostOps0 (W0 m ρ c) (Proc.devRef .tc main_arg2) = _
  after_results
theorem W1_main_arg3 : W1 m ρ c (Proc.devRef .tc main_arg3) = (m ((c : Thread nD τ).loc main_arg3)) := by
  show StableHlo.after hostOps0 (W0 m ρ c) (Proc.devRef .tc main_arg3) = _
  after_results
theorem W1_main_v1 : W1 m ρ c (Proc.devRef .tc main_v1) = (val_main_v7 (F := Ideal) (m ((c : Thread nD τ).loc main_arg4))) := by
  show StableHlo.after hostOps0 (W0 m ρ c) (Proc.devRef .tc main_v1) = _
  after_results
  rfl
theorem W1_main_v2 : W1 m ρ c (Proc.devRef .tc main_v2) = (val_main_v13 (F := Ideal) (m ((c : Thread nD τ).loc main_arg6))) := by
  show StableHlo.after hostOps0 (W0 m ρ c) (Proc.devRef .tc main_v2) = _
  after_results
  rfl
theorem W1_main_v3 : W1 m ρ c (Proc.devRef .tc main_v3) = (val_main_v38 (F := Ideal) (m ((c : Thread nD τ).loc main_arg9))) := by
  show StableHlo.after hostOps0 (W0 m ρ c) (Proc.devRef .tc main_v3) = _
  after_results
  rfl
theorem W1_main_v4 : W1 m ρ c (Proc.devRef .tc main_v4) = (val_main_v44 (F := Ideal) (m ((c : Thread nD τ).loc main_arg11))) := by
  show StableHlo.after hostOps0 (W0 m ρ c) (Proc.devRef .tc main_v4) = _
  after_results
  rfl
theorem W1_main_v5 : W1 m ρ c (Proc.devRef .tc main_v5) = (val_main_v9 (F := Ideal) (m ((c : Thread nD τ).loc main_arg5))) := by
  show StableHlo.after hostOps0 (W0 m ρ c) (Proc.devRef .tc main_v5) = _
  after_results
  exact row_v9 _
theorem W1_main_v6 : W1 m ρ c (Proc.devRef .tc main_v6) = (val_main_v15 (F := Ideal) (m ((c : Thread nD τ).loc main_arg7))) := by
  show StableHlo.after hostOps0 (W0 m ρ c) (Proc.devRef .tc main_v6) = _
  after_results
  exact row_v15 _
theorem W1_main_v7 : W1 m ρ c (Proc.devRef .tc main_v7) = (val_main_v40 (F := Ideal) (m ((c : Thread nD τ).loc main_arg10))) := by
  show StableHlo.after hostOps0 (W0 m ρ c) (Proc.devRef .tc main_v7) = _
  after_results
  exact row_v40 _
theorem W1_main_v8 : W1 m ρ c (Proc.devRef .tc main_v8) = (val_main_v46 (F := Ideal) (m ((c : Thread nD τ).loc main_arg12))) := by
  show StableHlo.after hostOps0 (W0 m ρ c) (Proc.devRef .tc main_v8) = _
  after_results
  exact row_v46 _

/-! ## After the projection launch -/

/-- The projected node features. -/
theorem W2_main_v9 : W2 m ρ c (Proc.devRef .tc main_v9) = val_main_v22 (F := Ideal) (m ((c : Thread nD τ).loc main_arg0)) (m ((c : Thread nD τ).loc main_arg8)) := by
  refine (W2_arr m ρ c 2).trans ((ProjBlocks.final (V1 m ρ) c).trans ?_)
  show proj (M := 20000) (K := 128) (N := 128) (W1 m ρ c (Proc.devRef .tc main_arg0)) (W1 m ρ c (Proc.devRef .tc main_v0)) = _
  rw [W1_main_arg0, W1_main_v0, ref_proj]
theorem W2_main_arg1 : W2 m ρ c (Proc.devRef .tc main_arg1) = (m ((c : Thread nD τ).loc main_arg1)) := (W2_of_ne m ρ c main_arg1 (by decide)).trans (W1_main_arg1 m ρ c)
theorem W2_main_arg2 : W2 m ρ c (Proc.devRef .tc main_arg2) = (m ((c : Thread nD τ).loc main_arg2)) := (W2_of_ne m ρ c main_arg2 (by decide)).trans (W1_main_arg2 m ρ c)
theorem W2_main_arg3 : W2 m ρ c (Proc.devRef .tc main_arg3) = (m ((c : Thread nD τ).loc main_arg3)) := (W2_of_ne m ρ c main_arg3 (by decide)).trans (W1_main_arg3 m ρ c)
theorem W2_main_v1 : W2 m ρ c (Proc.devRef .tc main_v1) = (val_main_v7 (F := Ideal) (m ((c : Thread nD τ).loc main_arg4))) := (W2_of_ne m ρ c main_v1 (by decide)).trans (W1_main_v1 m ρ c)
theorem W2_main_v2 : W2 m ρ c (Proc.devRef .tc main_v2) = (val_main_v13 (F := Ideal) (m ((c : Thread nD τ).loc main_arg6))) := (W2_of_ne m ρ c main_v2 (by decide)).trans (W1_main_v2 m ρ c)
theorem W2_main_v3 : W2 m ρ c (Proc.devRef .tc main_v3) = (val_main_v38 (F := Ideal) (m ((c : Thread nD τ).loc main_arg9))) := (W2_of_ne m ρ c main_v3 (by decide)).trans (W1_main_v3 m ρ c)
theorem W2_main_v4 : W2 m ρ c (Proc.devRef .tc main_v4) = (val_main_v44 (F := Ideal) (m ((c : Thread nD τ).loc main_arg11))) := (W2_of_ne m ρ c main_v4 (by decide)).trans (W1_main_v4 m ρ c)
theorem W2_main_v5 : W2 m ρ c (Proc.devRef .tc main_v5) = (val_main_v9 (F := Ideal) (m ((c : Thread nD τ).loc main_arg5))) := (W2_of_ne m ρ c main_v5 (by decide)).trans (W1_main_v5 m ρ c)
theorem W2_main_v6 : W2 m ρ c (Proc.devRef .tc main_v6) = (val_main_v15 (F := Ideal) (m ((c : Thread nD τ).loc main_arg7))) := (W2_of_ne m ρ c main_v6 (by decide)).trans (W1_main_v6 m ρ c)
theorem W2_main_v7 : W2 m ρ c (Proc.devRef .tc main_v7) = (val_main_v40 (F := Ideal) (m ((c : Thread nD τ).loc main_arg10))) := (W2_of_ne m ρ c main_v7 (by decide)).trans (W1_main_v7 m ρ c)
theorem W2_main_v8 : W2 m ρ c (Proc.devRef .tc main_v8) = (val_main_v46 (F := Ideal) (m ((c : Thread nD τ).loc main_arg12))) := (W2_of_ne m ρ c main_v8 (by decide)).trans (W1_main_v8 m ρ c)

/-! ## After the second stretch -/

/-- The projected features gathered by source node. -/
theorem W3_main_v20 : W3 m ρ c (Proc.devRef .tc main_v20) = val_main_v31 (F := Ideal) (m ((c : Thread nD τ).loc main_arg0)) (m ((c : Thread nD τ).loc main_arg1)) (m ((c : Thread nD τ).loc main_arg8)) := by
  show StableHlo.after hostOps1 (W2 m ρ c) (Proc.devRef .tc main_v20) = _
  after_results
  rw [W2_main_v9, W2_main_arg1]
  rfl
/-- The cosine envelope as a column. -/
theorem W3_main_v28 : W3 m ρ c (Proc.devRef .tc main_v28) = val_main_v18 (F := Ideal) (m ((c : Thread nD τ).loc main_arg2)) := by
  show StableHlo.after hostOps1 (W2 m ρ c) (Proc.devRef .tc main_v28) = _
  after_results
  rw [W2_main_arg2]
  exact col_v18 _ _ rfl
/-- The target node of every edge. -/
theorem W3_main_v13 : W3 m ρ c (Proc.devRef .tc main_v13) = val_main_v34 (F := Ideal) (m ((c : Thread nD τ).loc main_arg1)) := by
  show StableHlo.after hostOps1 (W2 m ρ c) (Proc.devRef .tc main_v13) = _
  after_results
  rw [W2_main_arg1]
  rfl
theorem W3_main_arg3 : W3 m ρ c (Proc.devRef .tc main_arg3) = (m ((c : Thread nD τ).loc main_arg3)) := by
  show StableHlo.after hostOps1 (W2 m ρ c) (Proc.devRef .tc main_arg3) = _
  after_results
  exact W2_main_arg3 m ρ c
theorem W3_main_v1 : W3 m ρ c (Proc.devRef .tc main_v1) = (val_main_v7 (F := Ideal) (m ((c : Thread nD τ).loc main_arg4))) := by
  show StableHlo.after hostOps1 (W2 m ρ c) (Proc.devRef .tc main_v1) = _
  after_results
  exact W2_main_v1 m ρ c
theorem W3_main_v2 : W3 m ρ c (Proc.devRef .tc main_v2) = (val_main_v13 (F := Ideal) (m ((c : Thread nD τ).loc main_arg6))) := by
  show StableHlo.after hostOps1 (W2 m ρ c) (Proc.devRef .tc main_v2) = _
  after_results
  exact W2_main_v2 m ρ c
theorem W3_main_v5 : W3 m ρ c (Proc.devRef .tc main_v5) = (val_main_v9 (F := Ideal) (m ((c : Thread nD τ).loc main_arg5))) := by
  show StableHlo.after hostOps1 (W2 m ρ c) (Proc.devRef .tc main_v5) = _
  after_results
  exact W2_main_v5 m ρ c
theorem W3_main_v6 : W3 m ρ c (Proc.devRef .tc main_v6) = (val_main_v15 (F := Ideal) (m ((c : Thread nD τ).loc main_arg7))) := by
  show StableHlo.after hostOps1 (W2 m ρ c) (Proc.devRef .tc main_v6) = _
  after_results
  exact W2_main_v6 m ρ c
theorem W3_main_v3 : W3 m ρ c (Proc.devRef .tc main_v3) = (val_main_v38 (F := Ideal) (m ((c : Thread nD τ).loc main_arg9))) := by
  show StableHlo.after hostOps1 (W2 m ρ c) (Proc.devRef .tc main_v3) = _
  after_results
  exact W2_main_v3 m ρ c
theorem W3_main_v4 : W3 m ρ c (Proc.devRef .tc main_v4) = (val_main_v44 (F := Ideal) (m ((c : Thread nD τ).loc main_arg11))) := by
  show StableHlo.after hostOps1 (W2 m ρ c) (Proc.devRef .tc main_v4) = _
  after_results
  exact W2_main_v4 m ρ c
theorem W3_main_v7 : W3 m ρ c (Proc.devRef .tc main_v7) = (val_main_v40 (F := Ideal) (m ((c : Thread nD τ).loc main_arg10))) := by
  show StableHlo.after hostOps1 (W2 m ρ c) (Proc.devRef .tc main_v7) = _
  after_results
  exact W2_main_v7 m ρ c
theorem W3_main_v8 : W3 m ρ c (Proc.devRef .tc main_v8) = (val_main_v46 (F := Ideal) (m ((c : Thread nD τ).loc main_arg12))) := by
  show StableHlo.after hostOps1 (W2 m ρ c) (Proc.devRef .tc main_v8) = _
  after_results
  exact W2_main_v8 m ρ c

/-! ## After the edge launch -/

/-- The messages. -/
theorem W4_main_v29 : W4 m ρ c (Proc.devRef .tc main_v29)
    = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 7).trans ((EdgeBlocks.final (V3 m ρ) c).trans ?_)
  show msg (M := 640000) (K := 50) (H := 128) (N := 128) (W3 m ρ c (Proc.devRef .tc main_arg3)) (W3 m ρ c (Proc.devRef .tc main_v28))
    (W3 m ρ c (Proc.devRef .tc main_v20)) (W3 m ρ c (Proc.devRef .tc main_v1)) (W3 m ρ c (Proc.devRef .tc main_v5)) (W3 m ρ c (Proc.devRef .tc main_v2))
    (W3 m ρ c (Proc.devRef .tc main_v6)) = _
  rw [W3_main_arg3, W3_main_v28, W3_main_v20, W3_main_v1, W3_main_v5, W3_main_v2, W3_main_v6, ref_msg]
theorem W4_main_v13 : W4 m ρ c (Proc.devRef .tc main_v13) = val_main_v34 (F := Ideal) (m ((c : Thread nD τ).loc main_arg1)) :=
  (W4_of_ne m ρ c main_v13 (by decide)).trans (W3_main_v13 m ρ c)
theorem W4_main_v3 : W4 m ρ c (Proc.devRef .tc main_v3) = (val_main_v38 (F := Ideal) (m ((c : Thread nD τ).loc main_arg9))) := (W4_of_ne m ρ c main_v3 (by decide)).trans (W3_main_v3 m ρ c)
theorem W4_main_v4 : W4 m ρ c (Proc.devRef .tc main_v4) = (val_main_v44 (F := Ideal) (m ((c : Thread nD τ).loc main_arg11))) := (W4_of_ne m ρ c main_v4 (by decide)).trans (W3_main_v4 m ρ c)
theorem W4_main_v7 : W4 m ρ c (Proc.devRef .tc main_v7) = (val_main_v40 (F := Ideal) (m ((c : Thread nD τ).loc main_arg10))) := (W4_of_ne m ρ c main_v7 (by decide)).trans (W3_main_v7 m ρ c)
theorem W4_main_v8 : W4 m ρ c (Proc.devRef .tc main_v8) = (val_main_v46 (F := Ideal) (m ((c : Thread nD τ).loc main_arg12))) := (W4_of_ne m ρ c main_v8 (by decide)).trans (W3_main_v8 m ρ c)

/-! ## After the third stretch -/

/-- The messages added up per target node. -/
theorem W5_main_v32 : W5 m ρ c (Proc.devRef .tc main_v32)
    = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 (W4 m ρ c) (Proc.devRef .tc main_v32) = _
  after_results
  rw [W4_main_v29, W4_main_v13]
  rfl
theorem W5_main_v3 : W5 m ρ c (Proc.devRef .tc main_v3) = (val_main_v38 (F := Ideal) (m ((c : Thread nD τ).loc main_arg9))) := by
  show StableHlo.after hostOps2 (W4 m ρ c) (Proc.devRef .tc main_v3) = _
  after_results
  exact W4_main_v3 m ρ c
theorem W5_main_v4 : W5 m ρ c (Proc.devRef .tc main_v4) = (val_main_v44 (F := Ideal) (m ((c : Thread nD τ).loc main_arg11))) := by
  show StableHlo.after hostOps2 (W4 m ρ c) (Proc.devRef .tc main_v4) = _
  after_results
  exact W4_main_v4 m ρ c
theorem W5_main_v7 : W5 m ρ c (Proc.devRef .tc main_v7) = (val_main_v40 (F := Ideal) (m ((c : Thread nD τ).loc main_arg10))) := by
  show StableHlo.after hostOps2 (W4 m ρ c) (Proc.devRef .tc main_v7) = _
  after_results
  exact W4_main_v7 m ρ c
theorem W5_main_v8 : W5 m ρ c (Proc.devRef .tc main_v8) = (val_main_v46 (F := Ideal) (m ((c : Thread nD τ).loc main_arg12))) := by
  show StableHlo.after hostOps2 (W4 m ρ c) (Proc.devRef .tc main_v8) = _
  after_results
  exact W4_main_v8 m ρ c

/-! ## After the node launch: the result -/

/-- The result buffer's final contents are the reference's result of the launch arrays. -/
theorem result : W6 m ρ c (Proc.devRef .tc main_v33)
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W6_arr m ρ c 5).trans ((NodeBlocks.final (V5 m ρ) c).trans ?_)
  show mlp (M := 20000) (K := 128) (H := 128) (N := 128) (W5 m ρ c (Proc.devRef .tc main_v32)) (W5 m ρ c (Proc.devRef .tc main_v3))
    (W5 m ρ c (Proc.devRef .tc main_v7)) (W5 m ρ c (Proc.devRef .tc main_v4)) (W5 m ρ c (Proc.devRef .tc main_v8)) = _
  rw [W5_main_v32, W5_main_v3, W5_main_v7, W5_main_v4, W5_main_v8, ref_out]

end Cert.Bridge

end
-- ==== Proof.lean ====
/-
  A continuous-filter convolution over a graph of 20000 nodes and 640000 edges, as three tiled kernels among host operations,
  against its plain array reference: equal results on the extended reals.

  Both programs compute, from the same arrays,

      out = silu (agg · W₂ᵀ + b₂) · Wᵀ + b,    agg[n] = ∑ over edges e with target n of msg[e],
      msg[e] = filter[e] · C[e] · (x · W₁ᵀ)[source e],    filter = silu (attr · U₁ᵀ + c₁) · U₂ᵀ + c₂,
      C = ½ (cos (π/10 · dist) + 1),

  with `silu h = h · σ(h)`. The kernel computes the projection `x · W₁ᵀ`, the messages and the final perceptron in three grids of
  row blocks, and leaves the gather by source node, the envelope `C` and the sum per target node to the host, exactly as the
  reference states them. On the extended reals a change of float format is the identity, a blocked product into a zero
  accumulator is the product, the activation the kernel calls `logistic` is the quotient the reference spells out, and the
  one rearrangement — the gathered features multiplied on the right rather than on the left — is commutativity of the product.
  None of this needs the inputs finite, so the precondition is never opened.

  The frames of the two kernel programs are the generated ones; the reference's frame is its generated run with the result
  dropped; no rewrite was applied in idealizing the kernel, so there is nothing to preserve.
-/
import proofs.«159987_j18081812316197_1_alg».proof.Defs
import proofs.«159987_j18081812316197_1_alg».proof.Proof.Gen.Kernel
import proofs.«159987_j18081812316197_1_alg».proof.Proof.Gen.Kernel.Skeleton
import proofs.«159987_j18081812316197_1_alg».proof.Proof.Gen.Kernel.Launch
import proofs.«159987_j18081812316197_1_alg».proof.Proof.Gen.Kernel.Points
import proofs.«159987_j18081812316197_1_alg».proof.Proof.Gen.Kernel.Frame
import proofs.«159987_j18081812316197_1_alg».proof.Proof.Gen.KernelIdeal
import proofs.«159987_j18081812316197_1_alg».proof.Proof.Gen.KernelIdeal.Skeleton
import proofs.«159987_j18081812316197_1_alg».proof.Proof.Gen.KernelIdeal.Launch
import proofs.«159987_j18081812316197_1_alg».proof.Proof.Gen.KernelIdeal.Points
import proofs.«159987_j18081812316197_1_alg».proof.Proof.Gen.KernelIdeal.Frame
import proofs.«159987_j18081812316197_1_alg».proof.Proof.Gen.ReferenceIdeal
import proofs.«159987_j18081812316197_1_alg».proof.Proof.Gen.ReferenceIdeal.Run
import proofs.«159987_j18081812316197_1_alg».proof.Proof.Gen.ReferenceIdeal.Read
import proofs.«159987_j18081812316197_1_alg».proof.Proof.Gen.Pre_finite_inputs
import proofs.«159987_j18081812316197_1_alg».proof.Proof.KernelRun
import proofs.«159987_j18081812316197_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing: the claim is `True`. -/
theorem preserves : Cert.preserves_Kernel_KernelIdeal := trivial

/-- Both runs end with the result at the reference's term of the kernel's launch arrays: the kernel's by walking its
    boundaries, the reference's by its generated run and the agreement of the two memories on the arguments. -/
theorem algebraic : Cert.algebraic_KernelIdeal_ReferenceIdeal := by
  intro m ρ m' ρ' _ hagree
  refine ⟨fun c => Cert.ReferenceIdeal.Read.val_main_v48 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.Bridge.result m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v48_eq, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
